-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x600000 : Shape := ⟨2, ![2, 600000]⟩
abbrev S2x200000 : Shape := ⟨2, ![2, 200000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x600000 32) (main_arg2 : IVec S2x200000 32) (main_arg3 : FVec F S256x128 .f32) (main_arg4 : FVec F S128 .f32) (main_arg5 : FVec F S128x64 .f32) (main_arg6 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S50000x256 : Shape := ⟨2, ![50000, 256]⟩
abbrev S2x600000 : Shape := ⟨2, ![2, 600000]⟩
abbrev S2x200000 : Shape := ⟨2, ![2, 200000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S50000x128 : Shape := ⟨2, ![50000, 128]⟩
abbrev S5000x256 : Shape := ⟨2, ![5000, 256]⟩
abbrev S5000x128 : Shape := ⟨2, ![5000, 128]⟩
abbrev S650000x128 : Shape := ⟨2, ![650000, 128]⟩
abbrev S1x128 : Shape := ⟨2, ![1, 128]⟩
abbrev S50000x64 : Shape := ⟨2, ![50000, 64]⟩
abbrev S5000x64 : Shape := ⟨2, ![5000, 64]⟩
abbrev S650000x64 : Shape := ⟨2, ![650000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S10000x64 : Shape := ⟨2, ![10000, 64]⟩
abbrev S10000x1 : Shape := ⟨2, ![10000, 1]⟩
abbrev S10000 : Shape := ⟨1, ![10000]⟩

abbrev nBuf : Space → Nat
  | .hbm => 113
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S2x600000, .i32⟩
  | .hbm, ⟨2, _⟩ => ⟨S2x200000, .i32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S50000, .i32⟩
  | .hbm, ⟨12, _⟩ => ⟨S650000, .i32⟩
  | .hbm, ⟨13, _⟩ => ⟨S650000, .i32⟩
  | .hbm, ⟨14, _⟩ => ⟨S_, .f32⟩
  | .hbm, ⟨15, _⟩ => ⟨S650000, .f32⟩
  | .hbm, ⟨16, _⟩ => ⟨S_, .f32⟩
  | .hbm, ⟨17, _⟩ => ⟨S50000, .f32⟩
  | .hbm, ⟨18, _⟩ => ⟨S650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S650000, .i32⟩
  | .hbm, ⟨30, _⟩ => ⟨S650000, .i1⟩
  | .hbm, ⟨31, _⟩ => ⟨S_, .i32⟩
  | .hbm, ⟨32, _⟩ => ⟨S650000, .i32⟩
  | .hbm, ⟨33, _⟩ => ⟨S650000, .i32⟩
  | .hbm, ⟨34, _⟩ => ⟨S650000, .i32⟩
  | .hbm, ⟨35, _⟩ => ⟨S650000x1, .i32⟩
  | .hbm, ⟨36, _⟩ => ⟨S650000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000, .f32⟩
  | .hbm, ⟨46, _⟩ => ⟨S650000, .f32⟩
  | .hbm, ⟨47, _⟩ => ⟨S650000x1, .f32⟩
  | .hbm, ⟨48, _⟩ => ⟨S50000x128, .f32⟩
  | .hbm, ⟨49, _⟩ => ⟨S_, .i32⟩
  | .hbm, ⟨50, _⟩ => ⟨S650000, .i32⟩
  | .hbm, ⟨51, _⟩ => ⟨S650000, .i1⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S650000x1, .i32⟩
  | .hbm, ⟨57, _⟩ => ⟨S650000x128, .f32⟩
  | .hbm, ⟨58, _⟩ => ⟨S650000x128, .f32⟩
  | .hbm, ⟨59, _⟩ => ⟨S650000x128, .f32⟩
  | .hbm, ⟨60, _⟩ => ⟨S_, .f32⟩
  | .hbm, ⟨61, _⟩ => ⟨S50000x128, .f32⟩
  | .hbm, ⟨62, _⟩ => ⟨S650000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x64, .f32⟩
  | .hbm, ⟨71, _⟩ => ⟨S_, .i32⟩
  | .hbm, ⟨72, _⟩ => ⟨S650000, .i32⟩
  | .hbm, ⟨73, _⟩ => ⟨S650000, .i1⟩
  | .hbm, ⟨74, _⟩ => ⟨S_, .i32⟩
  | .hbm, ⟨75, _⟩ => ⟨S650000, .i32⟩
  | .hbm, ⟨76, _⟩ => ⟨S650000, .i32⟩
  | .hbm, ⟨77, _⟩ => ⟨S650000, .i32⟩
  | .hbm, ⟨78, _⟩ => ⟨S650000x1, .i32⟩
  | .hbm, ⟨79, _⟩ => ⟨S650000x64, .f32⟩
  | .hbm, ⟨80, _⟩ => ⟨S650000x64, .f32⟩
  | .hbm, ⟨81, _⟩ => ⟨S650000x64, .f32⟩
  | .hbm, ⟨82, _⟩ => ⟨S_, .f32⟩
  | .hbm, ⟨83, _⟩ => ⟨S50000x64, .f32⟩
  | .hbm, ⟨84, _⟩ => ⟨S650000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S1x200000, .i32⟩
  | .hbm, ⟨90, _⟩ => ⟨S200000, .i32⟩
  | .hbm, ⟨91, _⟩ => ⟨S1x200000, .i32⟩
  | .hbm, ⟨92, _⟩ => ⟨S200000, .i32⟩
  | .hbm, ⟨93, _⟩ => ⟨S_, .i32⟩
  | .hbm, ⟨94, _⟩ => ⟨S200000, .i32⟩
  | .hbm, ⟨95, _⟩ => ⟨S200000, .i1⟩
  | .hbm, ⟨96, _⟩ => ⟨S_, .i32⟩
  | .hbm, ⟨97, _⟩ => ⟨S200000, .i32⟩
  | .hbm, ⟨98, _⟩ => ⟨S200000, .i32⟩
  | .hbm, ⟨99, _⟩ => ⟨S200000, .i32⟩
  | .hbm, ⟨100, _⟩ => ⟨S200000x1, .i32⟩
  | .hbm, ⟨101, _⟩ => ⟨S200000x64, .f32⟩
  | .hbm, ⟨102, _⟩ => ⟨S_, .i32⟩
  | .hbm, ⟨103, _⟩ => ⟨S200000, .i32⟩
  | .hbm, ⟨104, _⟩ => ⟨S200000, .i1⟩
  | .hbm, ⟨105, _⟩ => ⟨S_, .i32⟩
  | .hbm, ⟨106, _⟩ => ⟨S200000, .i32⟩
  | .hbm, ⟨107, _⟩ => ⟨S200000, .i32⟩
  | .hbm, ⟨108, _⟩ => ⟨S200000, .i32⟩
  | .hbm, ⟨109, _⟩ => ⟨S200000x1, .i32⟩
  | .hbm, ⟨110, _⟩ => ⟨S200000x64, .f32⟩
  | .hbm, ⟨111, _⟩ => ⟨S200000x1, .f32⟩
  | .hbm, ⟨112, _⟩ => ⟨S200000, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x1, .f32⟩
  | .local _ .vmem, ⟨15, _⟩ => ⟨S10000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_14 : Ref sig .tc := ⟨.hbm, 102, rfl⟩
abbrev main_v75 : Ref sig .tc := ⟨.hbm, 103, rfl⟩
abbrev main_v76 : Ref sig .tc := ⟨.hbm, 104, rfl⟩
abbrev main_c_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S10000 : S10000x64.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S200000x1_S200000 : S200000x1.ShapeCasts S200000
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x256_S256x128_S5000x128_1_0_0_1_n_n_wf : DotDims.WF S5000x256 S256x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x64_S5000x64_1_0_0_1_n_n_wf : DotDims.WF S5000x128 S128x64 S5000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  gather_S50000x64_S200000x1_S200000x64_1_0_n_n_0_1_164_wf : GatherDims.WF S50000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S200000x64.size a
  hwx2_0 : ∀ i : grid2.Coords, EltTy.bits .f32 = 32 ∨ (Rect.block (s := S200000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S200000x64.size a
  hwx2_1 : ∀ i : grid2.Coords, EltTy.bits .f32 = 32 ∨ (Rect.block (s := S200000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S200000x1.size a
  hwx2_2 : ∀ i : grid2.Coords, EltTy.bits .f32 = 32 ∨ (Rect.block (s := S200000x1) S10000x1.size (cc2_transform_2 i) (hinb2_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v74) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v81) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v82) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x600000 : Shape := ⟨2, ![2, 600000]⟩
abbrev S2x200000 : Shape := ⟨2, ![2, 200000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S50000x128 : Shape := ⟨2, ![50000, 128]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S650000x64 : Shape := ⟨2, ![650000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 151
  | .vmem => 0
  | .smem => 0
  | _ => 0

abbrev hbmTy0_0 (i : Nat) : BufTy := match i % 128 with
  | 0 => ⟨S50000x256, .f32⟩
  | 1 => ⟨S2x600000, .i32⟩
  | 2 => ⟨S2x200000, .i32⟩
  | 3 => ⟨S256x128, .f32⟩
  | 4 => ⟨S128, .f32⟩
  | 5 => ⟨S128x64, .f32⟩
  | 6 => ⟨S64, .f32⟩
  | 7 => ⟨S1x600000, .i32⟩
  | 8 => ⟨S600000, .i32⟩
  | 9 => ⟨S1x600000, .i32⟩
  | 10 => ⟨S600000, .i32⟩
  | 11 => ⟨S50000x128, .f32⟩
  | 12 => ⟨S50000, .i32⟩
  | 13 => ⟨S650000, .i32⟩
  | 14 => ⟨S650000, .i32⟩
  | 15 => ⟨S_, .f32⟩
  | 16 => ⟨S650000, .f32⟩
  | 17 => ⟨S_, .f32⟩
  | 18 => ⟨S50000, .f32⟩
  | 19 => ⟨S650000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S650000, .i32⟩
  | 31 => ⟨S650000, .i1⟩
  | 32 => ⟨S_, .i32⟩
  | 33 => ⟨S650000, .i32⟩
  | 34 => ⟨S650000, .i32⟩
  | 35 => ⟨S650000, .i32⟩
  | 36 => ⟨S650000x1, .i32⟩
  | 37 => ⟨S650000, .f32⟩
  | 38 => ⟨S_, .i32⟩
  | 39 => ⟨S650000, .i32⟩
  | 40 => ⟨S650000, .i1⟩
  | 41 => ⟨S_, .i32⟩
  | 42 => ⟨S650000, .i32⟩
  | 43 => ⟨S650000, .i32⟩
  | 44 => ⟨S650000, .i32⟩
  | 45 => ⟨S650000x1, .i32⟩
  | 46 => ⟨S650000, .f32⟩
  | 47 => ⟨S650000, .f32⟩
  | 48 => ⟨S_, .i32⟩
  | 49 => ⟨S650000, .i32⟩
  | 50 => ⟨S650000, .i1⟩
  | 51 => ⟨S_, .i32⟩
  | 52 => ⟨S650000, .i32⟩
  | 53 => ⟨S650000, .i32⟩
  | 54 => ⟨S650000, .i32⟩
  | 55 => ⟨S650000x1, .i32⟩
  | 56 => ⟨S650000x128, .f32⟩
  | 57 => ⟨S650000x1, .f32⟩
  | 58 => ⟨S650000x128, .f32⟩
  | 59 => ⟨S650000x128, .f32⟩
  | 60 => ⟨S_, .f32⟩
  | 61 => ⟨S50000x128, .f32⟩
  | 62 => ⟨S650000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x64, .f32⟩
  | 71 => ⟨S50000, .i32⟩
  | 72 => ⟨S650000, .i32⟩
  | 73 => ⟨S650000, .i32⟩
  | 74 => ⟨S_, .f32⟩
  | 75 => ⟨S650000, .f32⟩
  | 76 => ⟨S_, .f32⟩
  | 77 => ⟨S50000, .f32⟩
  | 78 => ⟨S650000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S650000, .i32⟩
  | 90 => ⟨S650000, .i1⟩
  | 91 => ⟨S_, .i32⟩
  | 92 => ⟨S650000, .i32⟩
  | 93 => ⟨S650000, .i32⟩
  | 94 => ⟨S650000, .i32⟩
  | 95 => ⟨S650000x1, .i32⟩
  | 96 => ⟨S650000, .f32⟩
  | 97 => ⟨S_, .i32⟩
  | 98 => ⟨S650000, .i32⟩
  | 99 => ⟨S650000, .i1⟩
  | 100 => ⟨S_, .i32⟩
  | 101 => ⟨S650000, .i32⟩
  | 102 => ⟨S650000, .i32⟩
  | 103 => ⟨S650000, .i32⟩
  | 104 => ⟨S650000x1, .i32⟩
  | 105 => ⟨S650000, .f32⟩
  | 106 => ⟨S650000, .f32⟩
  | 107 => ⟨S_, .i32⟩
  | 108 => ⟨S650000, .i32⟩
  | 109 => ⟨S650000, .i1⟩
  | 110 => ⟨S_, .i32⟩
  | 111 => ⟨S650000, .i32⟩
  | 112 => ⟨S650000, .i32⟩
  | 113 => ⟨S650000, .i32⟩
  | 114 => ⟨S650000x1, .i32⟩
  | 115 => ⟨S650000x64, .f32⟩
  | 116 => ⟨S650000x1, .f32⟩
  | 117 => ⟨S650000x64, .f32⟩
  | 118 => ⟨S650000x64, .f32⟩
  | 119 => ⟨S_, .f32⟩
  | 120 => ⟨S50000x64, .f32⟩
  | 121 => ⟨S650000x1, .i32⟩
  | 122 => ⟨S50000x64, .f32⟩
  | 123 => ⟨S1x64, .f32⟩
  | 124 => ⟨S50000x64, .f32⟩
  | 125 => ⟨S50000x64, .f32⟩
  | 126 => ⟨S1x200000, .i32⟩
  | 127 => ⟨S200000, .i32⟩
  | _ => ⟨S50000x256, .f32⟩

abbrev hbmTy0_1 (i : Nat) : BufTy := match i % 128 with
  | 0 => ⟨S_, .i32⟩
  | 1 => ⟨S200000, .i32⟩
  | 2 => ⟨S200000, .i1⟩
  | 3 => ⟨S_, .i32⟩
  | 4 => ⟨S200000, .i32⟩
  | 5 => ⟨S200000, .i32⟩
  | 6 => ⟨S200000, .i32⟩
  | 7 => ⟨S200000x1, .i32⟩
  | 8 => ⟨S200000x64, .f32⟩
  | 9 => ⟨S1x200000, .i32⟩
  | 10 => ⟨S200000, .i32⟩
  | 11 => ⟨S_, .i32⟩
  | 12 => ⟨S200000, .i32⟩
  | 13 => ⟨S200000, .i1⟩
  | 14 => ⟨S_, .i32⟩
  | 15 => ⟨S200000, .i32⟩
  | 16 => ⟨S200000, .i32⟩
  | 17 => ⟨S200000, .i32⟩
  | 18 => ⟨S200000x1, .i32⟩
  | 19 => ⟨S200000x64, .f32⟩
  | 20 => ⟨S200000x64, .f32⟩
  | 21 => ⟨S_, .f32⟩
  | 22 => ⟨S200000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_20 : Ref sig .tc := ⟨.hbm, 128, rfl⟩
abbrev main_v93 : Ref sig .tc := ⟨.hbm, 129, rfl⟩
abbrev main_v94 : Ref sig .tc := ⟨.hbm, 130, rfl⟩
abbrev main_c_21 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_22 : Ref sig .tc := ⟨.hbm, 139, rfl⟩
abbrev main_v102 : Ref sig .tc := ⟨.hbm, 140, rfl⟩
abbrev main_v103 : Ref sig .tc := ⟨.hbm, 141, rfl⟩
abbrev main_c_23 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_24 : Ref sig .tc := ⟨.hbm, 149, rfl⟩
abbrev main_v110 : Ref sig .tc := ⟨.hbm, 150, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  dot_S50000x256_S256x128_S50000x128_1_0_0_1_n_n_wf : DotDims.WF S50000x256 S256x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  gather_S50000x64_S200000x1_S200000x64_1_0_n_n_0_1_164_wf : GatherDims.WF S50000x64 S200000x1 S200000x64 [1] [0] [] [0] [] 1 ![1, 64]

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

class Facts : Prop extends Facts₀ where

variable [Facts]
-- ==== Proof.KernelRun.lean ====
/-
  The idealized kernel's run with its RESULT named.

  The program is ten segments: a stretch of host operations, a pipelined region, and so on. The buffer contents at
  each boundary are a fold from the launch memory (a host stretch applies its operations; a region leaves in each of
  its arrays what its write-backs leave and every other buffer as it found it), and the run ends with every unscoped
  buffer at the last boundary's contents. Read at the result buffer, that is the result; read at an argument, it is the
  argument as launched, since nothing writes one.
-/
import proofs.«164721_j78563541778798_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    boundary's contents and the seven argument arrays as launched. -/
theorem run_result : θ_run defs (onTc (τ := τ) (main (F := F))) ⟨m, fun _ => 0, ρ⟩ (fun r => ∀ c : Dev nD,
      r.2.mem ((c.tc : Thread nD τ).loc main_v83) = W10 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v83 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Result

end
-- ==== Proof.HostStages.lean ====
/-
  The host side of the two-layer graph convolution with a dot-product edge decoder, as pure functions of arrays.

  A graph on 50000 nodes is given by 600000 directed edges (row 0 of the edge list the sources, row 1 the
  destinations), to which one self loop per node is appended: 650000 edges. With `deg v` the number of edges arriving
  at `v` and `dinv v = deg v ^ (-1/2)` where `deg v > 0` (else 0), edge `e = (s, d)` carries the weight
  `dinv s · dinv d`. A layer sends a node feature matrix `H` to `out v = ∑_{e = (s, v)} H s · weight e`, plus a bias.
  The first layer is followed by a rectifier, the second is not; between them stand two dense products, and at the
  end the score of a label edge `(a, b)` is the dot product of the rows `z a` and `z b`.

  The three dense stages — the two matrix products and the row-by-row dot product — are PARAMETERS here
  (`mm1`, `mm2`, `dec`): the functions below are everything around them, so that two programs which differ only in
  how those three stages are computed are the same function `forward` at two triples of parameters.
-/
import proofs.«164721_j78563541778798_1_alg».proof.KernelIdeal

noncomputable section

namespace Cert.Gcn

open Idealize.ShloMosaic Cert.KernelIdeal Cert.KernelIdeal.Facts₀

variable {F : FTy → Type} [FloatOps F] [Cert.KernelIdeal.Facts]

/-! ## The edge list with self loops, and node ids as gather / scatter indices -/

/-- The sources of the 650000 edges: row 0 of the edge list, then every node once (its self loop). -/
def srcLoop (ei : (⟨S2x600000, .i32⟩ : BufTy).Contents (Elt F)) : (⟨S650000, .i32⟩ : BufTy).Contents (Elt F) :=
  concatenate S650000 0 [⟨S600000, shapeCast S600000 (extractStridedSlice S1x600000 ![0, 0] ei slices_S2x600000_S1x600000_0_0) shapeCasts_S1x600000_S600000⟩,
    ⟨S50000, iotaInDim S50000 32 0⟩] concatenates_S600000_S50000_S650000_d0

/-- The destinations of the 650000 edges: row 1 of the edge list, then every node once. -/
def dstLoop (ei : (⟨S2x600000, .i32⟩ : BufTy).Contents (Elt F)) : (⟨S650000, .i32⟩ : BufTy).Contents (Elt F) :=
  concatenate S650000 0 [⟨S600000, shapeCast S600000 (extractStridedSlice S1x600000 ![1, 0] ei slices_S2x600000_S1x600000_1_0) shapeCasts_S1x600000_S600000⟩,
    ⟨S50000, iotaInDim S50000 32 0⟩] concatenates_S600000_S50000_S650000_d0

/-- Node ids as a column of gather indices: a negative id counts from the end (50000 is added to it). -/
def wrapEdge (e : (⟨S650000, .i32⟩ : BufTy).Contents (Elt F)) : (⟨S650000x1, .i32⟩ : BufTy).Contents (Elt F) :=
  broadcastInDim S650000x1 ![0] bcast_S650000_S650000x1_0
    (select (cmpi .slt e (broadcastInDim S650000 ![] bcast_S_S650000 (constantI S_ 32 0#32)))
      (addi e (broadcastInDim S650000 ![] bcast_S_S650000 (constantI S_ 32 50000#32))) e)

/-- Node ids as a column of scatter indices (as they are). -/
def colEdge (e : (⟨S650000, .i32⟩ : BufTy).Contents (Elt F)) : (⟨S650000x1, .i32⟩ : BufTy).Contents (Elt F) :=
  broadcastInDim S650000x1 ![0] bcast_S650000_S650000x1_0 e

/-! ## The symmetric normalisation -/

/-- The degrees from the destinations: one added at `v` for every edge arriving at `v`. -/
def degreeOf (dst : (⟨S650000, .i32⟩ : BufTy).Contents (Elt F)) : (⟨S50000, .f32⟩ : BufTy).Contents (Elt F) :=
  Host.scatterAdd scatter_S50000_S650000x1_S650000_n_0_0_1
    (broadcastInDim S50000 ![] bcast_S_S50000 (constant S_ .f32 0x00000000#32))
    (colEdge dst)
    (broadcastInDim S650000 ![] bcast_S_S650000 (constant S_ .f32 0x3F800000#32))

/-- `deg v` of the graph with self loops. -/
def degree (ei : (⟨S2x600000, .i32⟩ : BufTy).Contents (Elt F)) : (⟨S50000, .f32⟩ : BufTy).Contents (Elt F) :=
  degreeOf (dstLoop ei)

/-- `dinv v`: the inverse square root of the degree where it is positive, zero elsewhere. -/
def invSqrtDegree (ei : (⟨S2x600000, .i32⟩ : BufTy).Contents (Elt F)) : (⟨S50000, .f32⟩ : BufTy).Contents (Elt F) :=
  select (cmpf .ogt (degree ei) (broadcastInDim S50000 ![] bcast_S_S50000 (constant S_ .f32 0x00000000#32)))
    (Host.rsqrt (degree ei))
    (broadcastInDim S50000 ![] bcast_S_S50000 (id (constant S_ .f32 0x00000000#32)))

/-- The weight of each edge from a vector `dinv` over the nodes: `dinv (source) · dinv (destination)`, as a column. -/
def edgeWeightOf (dinv : (⟨S50000, .f32⟩ : BufTy).Contents (Elt F)) (src dst : (⟨S650000, .i32⟩ : BufTy).Contents (Elt F)) : (⟨S650000x1, .f32⟩ : BufTy).Contents (Elt F) :=
  broadcastInDim S650000x1 ![0] bcast_S650000_S650000x1_0
    (mulf (Host.gather gather_S50000_S650000x1_S650000_n_0_n_n_0_1_1 dinv (wrapEdge src))
      (Host.gather gather_S50000_S650000x1_S650000_n_0_n_n_0_1_1 dinv (wrapEdge dst)))

/-- The edge weights of the graph with self loops. -/
def edgeWeight (ei : (⟨S2x600000, .i32⟩ : BufTy).Contents (Elt F)) : (⟨S650000x1, .f32⟩ : BufTy).Contents (Elt F) :=
  edgeWeightOf (invSqrtDegree ei) (srcLoop ei) (dstLoop ei)

/-! ## The two layers around their dense products -/

/-- Layer 1 after its dense product `H`, over any edge list `(src, dst)` with weights `w`: every edge carries its source's
    row of `H` times its weight to its destination, the rows arriving at a node are added, the bias is added, and the
    rectifier applied. -/
def hiddenOf (src dst : (⟨S650000, .i32⟩ : BufTy).Contents (Elt F)) (w : (⟨S650000x1, .f32⟩ : BufTy).Contents (Elt F)) (b1 : (⟨S128, .f32⟩ : BufTy).Contents (Elt F))
    (H : (⟨S50000x128, .f32⟩ : BufTy).Contents (Elt F)) : (⟨S50000x128, .f32⟩ : BufTy).Contents (Elt F) :=
  maximumf
    (addf
      (Host.scatterAdd scatter_S50000x128_S650000x1_S650000x128_1_0_0_1
        (broadcastInDim S50000x128 ![] bcast_S_S50000x128 (constant S_ .f32 0x00000000#32))
        (colEdge dst)
        (mulf (Host.gather gather_S50000x128_S650000x1_S650000x128_1_0_n_n_0_1_1128 H (wrapEdge src))
          (broadcastInDim S650000x128 ![0, 1] bcast_S650000x1_S650000x128_0_1 w)))
      (broadcastInDim S50000x128 ![0, 1] bcast_S1x128_S50000x128_0_1 (broadcastInDim S1x128 ![1] bcast_S128_S1x128_1 b1)))
    (broadcastInDim S50000x128 ![] bcast_S_S50000x128 (constant S_ .f32 0x00000000#32))

/-- Layer 1 of the graph with self loops. -/
def hidden (ei : (⟨S2x600000, .i32⟩ : BufTy).Contents (Elt F)) (b1 : (⟨S128, .f32⟩ : BufTy).Contents (Elt F))
    (H : (⟨S50000x128, .f32⟩ : BufTy).Contents (Elt F)) : (⟨S50000x128, .f32⟩ : BufTy).Contents (Elt F) :=
  hiddenOf (srcLoop ei) (dstLoop ei) (edgeWeight ei) b1 H

/-- Layer 2 after its dense product `Z`, over any edge list with weights: the same aggregation and the bias, no
    rectifier. -/
def embeddingOf (src dst : (⟨S650000, .i32⟩ : BufTy).Contents (Elt F)) (w : (⟨S650000x1, .f32⟩ : BufTy).Contents (Elt F)) (b2 : (⟨S64, .f32⟩ : BufTy).Contents (Elt F))
    (Z : (⟨S50000x64, .f32⟩ : BufTy).Contents (Elt F)) : (⟨S50000x64, .f32⟩ : BufTy).Contents (Elt F) :=
  addf
    (Host.scatterAdd scatter_S50000x64_S650000x1_S650000x64_1_0_0_1
      (broadcastInDim S50000x64 ![] bcast_S_S50000x64 (constant S_ .f32 0x00000000#32))
      (colEdge dst)
      (mulf (Host.gather gather_S50000x64_S650000x1_S650000x64_1_0_n_n_0_1_164 Z (wrapEdge src))
        (broadcastInDim S650000x64 ![0, 1] bcast_S650000x1_S650000x64_0_1 w)))
    (broadcastInDim S50000x64 ![0, 1] bcast_S1x64_S50000x64_0_1 (broadcastInDim S1x64 ![1] bcast_S64_S1x64_1 b2))

/-- Layer 2 of the graph with self loops. -/
def embedding (ei : (⟨S2x600000, .i32⟩ : BufTy).Contents (Elt F)) (b2 : (⟨S64, .f32⟩ : BufTy).Contents (Elt F))
    (Z : (⟨S50000x64, .f32⟩ : BufTy).Contents (Elt F)) : (⟨S50000x64, .f32⟩ : BufTy).Contents (Elt F) :=
  embeddingOf (srcLoop ei) (dstLoop ei) (edgeWeight ei) b2 Z

/-! ## The label edges' endpoints -/

/-- Row `r` of the label edge list as a column of gather indices (negative ids counted from the end). -/
def wrapLabel (e : (⟨S200000, .i32⟩ : BufTy).Contents (Elt F)) : (⟨S200000x1, .i32⟩ : BufTy).Contents (Elt F) :=
  broadcastInDim S200000x1 ![0] bcast_S200000_S200000x1_0
    (select (cmpi .slt e (broadcastInDim S200000 ![] bcast_S_S200000 (constantI S_ 32 0#32)))
      (addi e (broadcastInDim S200000 ![] bcast_S_S200000 (constantI S_ 32 50000#32))) e)

/-- The embeddings of the label edges' first endpoints, one row per label edge. -/
def endpoint0 (eli : (⟨S2x200000, .i32⟩ : BufTy).Contents (Elt F)) (z : (⟨S50000x64, .f32⟩ : BufTy).Contents (Elt F)) :
    (⟨S200000x64, .f32⟩ : BufTy).Contents (Elt F) :=
  Host.gather gather_S50000x64_S200000x1_S200000x64_1_0_n_n_0_1_164 z
    (wrapLabel (shapeCast S200000 (extractStridedSlice S1x200000 ![0, 0] eli slices_S2x200000_S1x200000_0_0) shapeCasts_S1x200000_S200000))

/-- The embeddings of the label edges' second endpoints. -/
def endpoint1 (eli : (⟨S2x200000, .i32⟩ : BufTy).Contents (Elt F)) (z : (⟨S50000x64, .f32⟩ : BufTy).Contents (Elt F)) :
    (⟨S200000x64, .f32⟩ : BufTy).Contents (Elt F) :=
  Host.gather gather_S50000x64_S200000x1_S200000x64_1_0_n_n_0_1_164 z
    (wrapLabel (shapeCast S200000 (extractStridedSlice S1x200000 ![1, 0] eli slices_S2x200000_S1x200000_1_0) shapeCasts_S1x200000_S200000))

/-! ## The whole network over its three dense stages -/

/-- The network: `mm1 x W1`, layer 1's aggregation, `mm2 · W2`, layer 2's aggregation, and `dec` of the two endpoint
    matrices. -/
def forward
    (mm1 : (⟨S50000x256, .f32⟩ : BufTy).Contents (Elt F) → (⟨S256x128, .f32⟩ : BufTy).Contents (Elt F) → (⟨S50000x128, .f32⟩ : BufTy).Contents (Elt F))
    (mm2 : (⟨S50000x128, .f32⟩ : BufTy).Contents (Elt F) → (⟨S128x64, .f32⟩ : BufTy).Contents (Elt F) → (⟨S50000x64, .f32⟩ : BufTy).Contents (Elt F))
    (dec : (⟨S200000x64, .f32⟩ : BufTy).Contents (Elt F) → (⟨S200000x64, .f32⟩ : BufTy).Contents (Elt F) → (⟨S200000, .f32⟩ : BufTy).Contents (Elt F))
    (x : (⟨S50000x256, .f32⟩ : BufTy).Contents (Elt F)) (ei : (⟨S2x600000, .i32⟩ : BufTy).Contents (Elt F))
    (eli : (⟨S2x200000, .i32⟩ : BufTy).Contents (Elt F)) (W1 : (⟨S256x128, .f32⟩ : BufTy).Contents (Elt F))
    (b1 : (⟨S128, .f32⟩ : BufTy).Contents (Elt F)) (W2 : (⟨S128x64, .f32⟩ : BufTy).Contents (Elt F))
    (b2 : (⟨S64, .f32⟩ : BufTy).Contents (Elt F)) : (⟨S200000, .f32⟩ : BufTy).Contents (Elt F) :=
  dec (endpoint0 eli (embedding ei b2 (mm2 (hidden ei b1 (mm1 x W1)) W2)))
    (endpoint1 eli (embedding ei b2 (mm2 (hidden ei b1 (mm1 x W1)) W2)))

end Cert.Gcn

end
-- ==== Proof.StretchWeights.lean ====
/-
  The opening host operations, from any buffer contents `U`: the edge list with self loops and the edge weights.

  The first stretch slices the edge list into sources and destinations, appends the self loops, counts the edges
  arriving at each node, and takes the comparison `deg > 0` and the inverse square root of the degrees; the second
  (the outlined `where`) selects between them; the third gathers the result at both endpoints of every edge and
  multiplies. Each is read as a function of the contents it starts from, so that composing them re-reads nothing.
-/
import proofs.«164721_j78563541778798_1_alg».proof.Proof.Gen.KernelIdeal.Launch
import proofs.«164721_j78563541778798_1_alg».proof.Proof.HostStages
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.ShloMosaic.StableHlo Idealize.SL.Sem

variable {F : FTy → Type} [FloatOps F] (U : Valuation τ sig (Elt F))

/-! ## The first stretch -/

theorem src_of : StableHlo.after hostOps0 U (Proc.devRef .tc main_v5) = Cert.Gcn.srcLoop (U (Proc.devRef .tc main_arg1)) := by
  after_results; rfl

theorem dst_of : StableHlo.after hostOps0 U (Proc.devRef .tc main_v6) = Cert.Gcn.dstLoop (U (Proc.devRef .tc main_arg1)) := by
  after_results; rfl

theorem positive_of : StableHlo.after hostOps0 U (Proc.devRef .tc main_v12)
    = cmpf .ogt (Cert.Gcn.degree (U (Proc.devRef .tc main_arg1))) (broadcastInDim S50000 ![] bcast_S_S50000 (constant (F := F) S_ .f32 0x00000000#32)) := by
  after_results; rfl

theorem invRoot_of : StableHlo.after hostOps0 U (Proc.devRef .tc main_v13) = Host.rsqrt (Cert.Gcn.degree (U (Proc.devRef .tc main_arg1))) := by
  after_results; rfl

theorem zero_of : StableHlo.after hostOps0 U (Proc.devRef .tc main_cst_2) = constant (F := F) S_ .f32 0x00000000#32 := by
  after_results

/-! ## The second stretch: the selection -/

theorem select_of : StableHlo.after hostOps0_1 U (Proc.devRef .tc main_v14)
    = select (U (Proc.devRef .tc main_v12)) (U (Proc.devRef .tc main_v13)) (broadcastInDim S50000 ![] bcast_S_S50000 (id (U (Proc.devRef .tc main_cst_2)))) := by
  after_results; rfl

/-! ## The third stretch: the weights -/

set_option maxHeartbeats 2000000 in
theorem weight_of : StableHlo.after hostOps0_2 U (Proc.devRef .tc main_v30)
    = Cert.Gcn.edgeWeightOf (U (Proc.devRef .tc main_v14)) (U (Proc.devRef .tc main_v5)) (U (Proc.devRef .tc main_v6)) := by
  after_results; rfl

end Cert.KernelIdeal.Stretch

end
-- ==== Proof.StretchHidden.lean ====
/-
  The host operations between the first two regions, from any buffer contents `U`: layer 1's aggregation.

  The stretch gathers the rows of the first product at the edges' sources, scales each by its edge's weight, adds them
  up at the destinations, adds the bias, and (the outlined rectifier) takes the maximum with zero.
-/
import proofs.«164721_j78563541778798_1_alg».proof.Proof.Gen.KernelIdeal.Launch
import proofs.«164721_j78563541778798_1_alg».proof.Proof.HostStages
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.ShloMosaic.StableHlo Idealize.SL.Sem

variable {F : FTy → Type} [FloatOps F] (U : Valuation τ sig (Elt F))

set_option maxHeartbeats 4000000 in
theorem hidden_of : StableHlo.after hostOps1_1 (StableHlo.after hostOps1 U) (Proc.devRef .tc main_v47)
    = Cert.Gcn.hiddenOf (U (Proc.devRef .tc main_v5)) (U (Proc.devRef .tc main_v6)) (U (Proc.devRef .tc main_v30)) (U (Proc.devRef .tc main_arg4)) (U (Proc.devRef .tc main_v31)) := by
  after_results; rfl

end Cert.KernelIdeal.Stretch

end
-- ==== Proof.StretchEndpoint0.lean ====
/-
  The host operations between the last two regions, from any buffer contents `U`: layer 2's aggregation and the label edges' first endpoints.

  The stretch gathers the rows of the second product at the edges' sources, scales each by its edge's weight, adds them
  up at the destinations and adds the bias: the node embeddings. It then gathers the embeddings at row 0 of the label
  edge list.
-/
import proofs.«164721_j78563541778798_1_alg».proof.Proof.Gen.KernelIdeal.Launch
import proofs.«164721_j78563541778798_1_alg».proof.Proof.HostStages
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.ShloMosaic.StableHlo Idealize.SL.Sem

variable {F : FTy → Type} [FloatOps F] (U : Valuation τ sig (Elt F))

set_option maxHeartbeats 8000000 in
theorem endpoint0_of : StableHlo.after hostOps2 U (Proc.devRef .tc main_v74)
    = Cert.Gcn.endpoint0 (U (Proc.devRef .tc main_arg2)) (Cert.Gcn.embeddingOf (U (Proc.devRef .tc main_v5)) (U (Proc.devRef .tc main_v6)) (U (Proc.devRef .tc main_v30)) (U (Proc.devRef .tc main_arg6)) (U (Proc.devRef .tc main_v48))) := by
  after_results; rfl

end Cert.KernelIdeal.Stretch

end
-- ==== Proof.StretchEndpoint1.lean ====
/-
  The host operations between the last two regions, from any buffer contents `U`: layer 2's aggregation and the label edges' second endpoints.

  The stretch gathers the rows of the second product at the edges' sources, scales each by its edge's weight, adds them
  up at the destinations and adds the bias: the node embeddings. It then gathers the embeddings at row 1 of the label
  edge list.
-/
import proofs.«164721_j78563541778798_1_alg».proof.Proof.Gen.KernelIdeal.Launch
import proofs.«164721_j78563541778798_1_alg».proof.Proof.HostStages
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.ShloMosaic.StableHlo Idealize.SL.Sem

variable {F : FTy → Type} [FloatOps F] (U : Valuation τ sig (Elt F))

set_option maxHeartbeats 8000000 in
theorem endpoint1_of : StableHlo.after hostOps2 U (Proc.devRef .tc main_v81)
    = Cert.Gcn.endpoint1 (U (Proc.devRef .tc main_arg2)) (Cert.Gcn.embeddingOf (U (Proc.devRef .tc main_v5)) (U (Proc.devRef .tc main_v6)) (U (Proc.devRef .tc main_v30)) (U (Proc.devRef .tc main_arg6)) (U (Proc.devRef .tc main_v48))) := by
  after_results; rfl

end Cert.KernelIdeal.Stretch

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.Dense1.lean ====
/-
  The first dense product, read off its pipelined region as one whole-array function.

  The region walks the 50000 rows of its left operand in 10 blocks of 5000 rows; the right operand (256 × 128) is one
  block, the same at every point. A point multiplies its 5000 × 256 block by the whole right operand on the matrix unit,
  accumulating into zeros, and writes the 5000 × 128 result back as block `t` of the output. At the exact instance a change
  of float format is the identity and the matrix unit's result at `(p, q)` is `∑ k, l (p, k) · r (k, q)`; row `p` of
  block `t` is row `5000 · t + p` of the array, so what point `t` writes is block `t` of the plain product of the two whole
  arrays, and since the blocks tile the output, the output ends holding that product.
-/
import proofs.«164721_j78563541778798_1_alg».proof.Proof.Gen.KernelIdeal.Frame
import proofs.«164721_j78563541778798_1_alg».proof.Proof.LibMatOps
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The plain product of a 50000 × 256 by a 256 × 128 array on the extended reals. -/
def product (A : FVec Ideal S50000x256 .f32) (B : FVec Ideal S256x128 .f32) : FVec Ideal S50000x128 .f32 :=
  fun i => ∑ k : Fin 256, A (ix2 (⟨(i 0).val, idx2_lt0 i⟩ : Fin 50000) k) * B (ix2 k (⟨(i 1).val, idx2_lt1 i⟩ : Fin 128))

theorem product_apply (A : FVec Ideal S50000x256 .f32) (B : FVec Ideal S256x128 .f32) (r : Fin 50000) (q : Fin 128) :
    product A B (ix2 r q) = ∑ k : Fin 256, A (ix2 r k) * B (ix2 k q) := rfl

/-- What a point stores, at `(p, q)` of its block: the row-by-column sum of its two loaded blocks. -/
theorem stored_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  exact Cert.MatOps.matmul_plain_apply dot_S5000x256_S256x128_S5000x128_1_0_0_1_n_n_wf none _ _ p q

/-- … which is the whole product at an array index `i`, once each loaded entry is known to be the arrays' entry on row
    `i 0`, respectively column `i 1`. -/
theorem stored_eq_product (A : FVec Ideal S50000x256 .f32) (B : FVec Ideal S256x128 .f32)
    (x0 : Vec Ideal S5000x256 .f32) (x1 : Vec Ideal S256x128 .f32) (i : S50000x128.Idx) (p : Fin 5000) (q : Fin 128)
    (h0 : ∀ k : Fin 256, x0 (ix2 p k) = A (ix2 (⟨(i 0).val, idx2_lt0 i⟩ : Fin 50000) k))
    (h1 : ∀ k : Fin 256, x1 (ix2 k q) = B (ix2 k (⟨(i 1).val, idx2_lt1 i⟩ : Fin 128))) :
    k0_pay1 (F := Ideal) x0 x1 (ix2 p q) = product A B i := by
  rw [stored_apply]
  exact Finset.sum_congr rfl fun k _ => by rw [h0 k, h1 k]

theorem offsets_zero : (![0, 0] : Fin 2 → Nat) = fun _ => 0 := funext fun a => by fin_cases a <;> rfl

/-- The printed index maps over the grid: the left operand's and the output's block move down the rows together, one
    block per point, and every other block index is zero. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem index_onto : ∀ b : Fin 10, ∃ t : Fin cfg0.N, win0_2.index t = ![b.val, 0] :=
  (by decide +kernel : ∀ b : Fin 10, ∃ t : Fin grid0.N, win0_2.index t = ![b.val, 0])

section
variable (V : (c : Dev nD) → (b : Ref sig .tc) → Buf (Elt Ideal) ((c : Thread nD τ).loc b))

/-- What point `t` writes back is block `t` of the product of the two arrays as the region finds them. -/
theorem flushed_eq (c : Dev nD) (t : Fin cfg0.N) :
    (dat0 V c).flushed 2 t = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero offsets_zero]
  simp only [View.ld_unit_zero (S := S5000x256) offsets_zero, View.ld_unit_zero (S := S256x128) offsets_zero]
  obtain ⟨e0, e1, e2, e3, e4, e5⟩ := index_facts t
  funext j
  obtain ⟨p, q, rfl⟩ : ∃ (p : Fin 5000) (q : Fin 128), j = ix2 p q := ⟨j 0, j 1, eq_ix2 j⟩
  refine stored_eq_product (V c main_arg0) (V c main_arg3) _ _ (((cfg0.win 2).blk t).view.emb (ix2 p q)) p q (fun k => ?_) (fun k => ?_)
  · show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  · show V c main_arg3 (((cfg0.win 1).blk t).view.emb (ix2 k q)) = V c main_arg3 _
    refine congrArg (V c main_arg3) (funext fun a => Fin.ext ?_)
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega

/-- An index of the output is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Row `r` is in the block of the point whose block index is `r / 5000`: the blocks tile the output. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the product of the two operand arrays as the region finds them. -/
theorem final (c : Dev nD) : (dat0 V c).arrAt 2 cfg0.N = product (V c main_arg0) (V c main_arg3) :=
  (dat0 V c).arrAt_eq_of_cover 2 _ (fun t _ => flushed_eq V c t) (covered)

end

end Cert.KernelIdeal.Dense1

end
-- ==== Proof.Dense2.lean ====
/-
  The second dense product, read off its pipelined region as one whole-array function.

  The region walks the 50000 rows of its left operand in 10 blocks of 5000 rows; the right operand (128 × 64) is one
  block, the same at every point. A point multiplies its 5000 × 128 block (recast to its own shape, which changes nothing) by the whole right operand on the matrix unit,
  accumulating into zeros, and writes the 5000 × 64 result back as block `t` of the output. At the exact instance a change
  of float format is the identity and the matrix unit's result at `(p, q)` is `∑ k, l (p, k) · r (k, q)`; row `p` of
  block `t` is row `5000 · t + p` of the array, so what point `t` writes is block `t` of the plain product of the two whole
  arrays, and since the blocks tile the output, the output ends holding that product.
-/
import proofs.«164721_j78563541778798_1_alg».proof.Proof.Gen.KernelIdeal.Frame
import proofs.«164721_j78563541778798_1_alg».proof.Proof.LibMatOps
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The plain product of a 50000 × 128 by a 128 × 64 array on the extended reals. -/
def product (A : FVec Ideal S50000x128 .f32) (B : FVec Ideal S128x64 .f32) : FVec Ideal S50000x64 .f32 :=
  fun i => ∑ k : Fin 128, A (ix2 (⟨(i 0).val, idx2_lt0 i⟩ : Fin 50000) k) * B (ix2 k (⟨(i 1).val, idx2_lt1 i⟩ : Fin 64))

theorem product_apply (A : FVec Ideal S50000x128 .f32) (B : FVec Ideal S128x64 .f32) (r : Fin 50000) (q : Fin 64) :
    product A B (ix2 r q) = ∑ k : Fin 128, A (ix2 r k) * B (ix2 k q) := rfl

/-- What a point stores, at `(p, q)` of its block: the row-by-column sum of its two loaded blocks. -/
theorem stored_apply (x0 : Vec Ideal S5000x128 .f32) (x1 : Vec Ideal S128x64 .f32) (p : Fin 5000) (q : Fin 64) :
    k1_pay1 (F := Ideal) x0 x1 (ix2 p q) = ∑ k : Fin 128, x0 (ix2 p k) * x1 (ix2 k q) := by
  unfold k1_pay1
  refine (Cert.MatOps.matmul_plain_apply dot_S5000x128_S128x64_S5000x64_1_0_0_1_n_n_wf none _ _ p q).trans ?_
  refine Finset.sum_congr rfl fun k _ => ?_
  show shapeCast S5000x128 x0 shapeCasts_S5000x128_S5000x128 (ix2 p k) * x1 (ix2 k q) = _
  rw [shapeCast_self]

/-- … which is the whole product at an array index `i`, once each loaded entry is known to be the arrays' entry on row
    `i 0`, respectively column `i 1`. -/
theorem stored_eq_product (A : FVec Ideal S50000x128 .f32) (B : FVec Ideal S128x64 .f32)
    (x0 : Vec Ideal S5000x128 .f32) (x1 : Vec Ideal S128x64 .f32) (i : S50000x64.Idx) (p : Fin 5000) (q : Fin 64)
    (h0 : ∀ k : Fin 128, x0 (ix2 p k) = A (ix2 (⟨(i 0).val, idx2_lt0 i⟩ : Fin 50000) k))
    (h1 : ∀ k : Fin 128, x1 (ix2 k q) = B (ix2 k (⟨(i 1).val, idx2_lt1 i⟩ : Fin 64))) :
    k1_pay1 (F := Ideal) x0 x1 (ix2 p q) = product A B i := by
  rw [stored_apply]
  exact Finset.sum_congr rfl fun k _ => by rw [h0 k, h1 k]

theorem offsets_zero : (![0, 0] : Fin 2 → Nat) = fun _ => 0 := funext fun a => by fin_cases a <;> rfl

/-- The printed index maps over the grid: the left operand's and the output's block move down the rows together, one
    block per point, and every other block index is zero. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem index_onto : ∀ b : Fin 10, ∃ t : Fin cfg1.N, win1_2.index t = ![b.val, 0] :=
  (by decide +kernel : ∀ b : Fin 10, ∃ t : Fin grid1.N, win1_2.index t = ![b.val, 0])

section
variable (V : (c : Dev nD) → (b : Ref sig .tc) → Buf (Elt Ideal) ((c : Thread nD τ).loc b))

/-- What point `t` writes back is block `t` of the product of the two arrays as the region finds them. -/
theorem flushed_eq (c : Dev nD) (t : Fin cfg1.N) :
    (dat1 V c).flushed 2 t = ((cfg1.win 2).blk t).view.read (Elt Ideal) (product (V c main_v47) (V c main_arg5)) := by
  show (cfg1.win 2).cut (grid1.coords t) ((dat1 V c).after 2 t) = _
  rw [after1_2]
  unfold out1_2
  rw [View.canon_unit_zero offsets_zero]
  simp only [View.ld_unit_zero (S := S5000x128) offsets_zero, View.ld_unit_zero (S := S128x64) offsets_zero]
  obtain ⟨e0, e1, e2, e3, e4, e5⟩ := index_facts t
  funext j
  obtain ⟨p, q, rfl⟩ : ∃ (p : Fin 5000) (q : Fin 64), j = ix2 p q := ⟨j 0, j 1, eq_ix2 j⟩
  refine stored_eq_product (V c main_v47) (V c main_arg5) _ _ (((cfg1.win 2).blk t).view.emb (ix2 p q)) p q (fun k => ?_) (fun k => ?_)
  · show V c main_v47 (((cfg1.win 0).blk t).view.emb (ix2 p k)) = V c main_v47 _
    refine congrArg (V c main_v47) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * k.val = k.val; omega
  · show V c main_arg5 (((cfg1.win 1).blk t).view.emb (ix2 k q)) = V c main_arg5 _
    refine congrArg (V c main_arg5) (funext fun a => Fin.ext ?_)
    match a with
    | ⟨0, _⟩ => show win1_1.index t (0 : Fin 2) * 128 + 1 * k.val = k.val; omega
    | ⟨1, _⟩ => show win1_1.index t (1 : Fin 2) * 64 + 1 * q.val = win1_2.index t (1 : Fin 2) * 64 + 1 * q.val; omega

/-- An index of the output is in point `t`'s block iff each coordinate is in the block's range on its axis. -/
theorem mem_block (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Row `r` is in the block of the point whose block index is `r / 5000`: the blocks tile the output. -/
theorem covered (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The output array after the region: the product of the two operand arrays as the region finds them. -/
theorem final (c : Dev nD) : (dat1 V c).arrAt 2 cfg1.N = product (V c main_v47) (V c main_arg5) :=
  (dat1 V c).arrAt_eq_of_cover 2 _ (fun t _ => flushed_eq V c t) (covered)

end

end Cert.KernelIdeal.Dense2

end
-- ==== Proof.LibColumnCast.lean ====
/-
  A vector recast as a one-column matrix, read at an index. A row sum kept as a column (a sum over the last axis with
  the axis kept) is stored by recasting the vector of `a` sums to shape `a × 1`; row-major order puts entry `p` of the
  vector at `(p, 0)`.
-/
import Idealize.ShloMosaic.Lib.ValueIdx
import Idealize.ShloMosaic.Lib.Pipeline.Value

namespace Cert.LibColumnCast

open Idealize.ShloMosaic Idealize.ShloMosaic.ValueIdx

/-- A vector of `a` entries recast as an `a × 1` column reads, at `(p, z)`, the vector's entry `p`, whatever the
    unit coordinate `z`: both sit at position `p` in row-major order. Generic in the extent and the element type. -/
theorem column_cast {a : ℕ} {α : Type} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Cert.LibColumnCast
-- ==== Proof.Decode.lean ====
/-
  The decoder's row-by-row dot product, read off its pipelined region as one whole-array function.

  The region walks the 200000 rows of two 200000 × 64 arrays in 20 blocks of 10000 rows. A point multiplies its two
  blocks entry by entry, adds each row's 64 products, and stores the 10000 sums as a one-column block, which is written
  back as block `t` of the 200000 × 1 output. At the exact instance the lane sum is the plain sum over the row, and a
  vector recast as a column holds entry `p` at `(p, 0)`; row `p` of block `t` is row `10000 · t + p` of the arrays. So what
  point `t` writes is block `t` of the column of row dot products, and since the blocks tile the output, the output ends
  holding that column.
-/
import proofs.«164721_j78563541778798_1_alg».proof.Proof.Gen.KernelIdeal.Frame
import proofs.«164721_j78563541778798_1_alg».proof.Proof.LibColumnCast
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Decode

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The column of row dot products of two 200000 × 64 arrays on the extended reals. -/
def rowDots (A B : FVec Ideal S200000x64 .f32) : FVec Ideal S200000x1 .f32 :=
  fun i => ∑ k : Fin 64, A (ix2 (⟨(i 0).val, idx2_lt0 i⟩ : Fin 200000) k) * B (ix2 (⟨(i 0).val, idx2_lt0 i⟩ : Fin 200000) k)

theorem rowDots_apply (A B : FVec Ideal S200000x64 .f32) (r : Fin 200000) (z : Fin 1) :
    rowDots A B (ix2 r z) = ∑ k : Fin 64, A (ix2 r k) * B (ix2 r k) := rfl

/-- A row's lane sum at the exact instance: the plain sum of the row's 64 entries. -/
theorem laneSum_apply (src : FVec Ideal S10000x64 .f32) (h : S10000x64.Reduces [1] S10000) (hφ : FKind.Formats .f32)
    (hacc : (0x00000000#32 : BitVec 32) = 0x00000000#32) (p : Fin 10000) :
    multiReduction .add [1] S10000 src 0x00000000#32 h hφ hacc (ix1 p) = ∑ k : Fin 64, src (ix2 p k) := by
  refine (Ideal.multiReduction_add_single src 0x00000000#32 h hφ hacc (ix1 p)).trans ?_
  show ∑ k : Fin 64, src (h.lift (ix1 p) k) = _
  refine Finset.sum_congr rfl fun k _ => congrArg src (funext fun a => Fin.ext ?_)
  match a with
  | ⟨0, _⟩ => rfl
  | ⟨1, _⟩ => rfl

/-- What a point stores, at `(p, z)` of its one-column block: the dot product of row `p` of its two loaded blocks. -/
theorem stored_apply (x0 x1 : Vec Ideal S10000x64 .f32) (p : Fin 10000) (z : Fin 1) :
    k2_pay1 (F := Ideal) x0 x1 (ix2 p z) = ∑ k : Fin 64, x0 (ix2 p k) * x1 (ix2 p k) := by
  unfold k2_pay1
  refine (Cert.LibColumnCast.column_cast _ shapeCasts_S10000_S10000x1 p z).trans ?_
  refine (laneSum_apply _ reduces_S10000x64_S10000 (.inl rfl) rfl p).trans ?_
  refine Finset.sum_congr rfl fun k _ => ?_
  show shapeCast S10000x64 x0 shapeCasts_S10000x64_S10000x64 (ix2 p k) * shapeCast S10000x64 x1 shapeCasts_S10000x64_S10000x64 (ix2 p k) = _
  rw [shapeCast_self, shapeCast_self]

/-- … which is the column of row dot products at an array index `i`, once each loaded entry is known to be the arrays'
    entry on row `i 0`. -/
theorem stored_eq_rowDots (A B : FVec Ideal S200000x64 .f32) (x0 x1 : Vec Ideal S10000x64 .f32) (i : S200000x1.Idx)
    (p : Fin 10000) (z : Fin 1)
    (h0 : ∀ k : Fin 64, x0 (ix2 p k) = A (ix2 (⟨(i 0).val, idx2_lt0 i⟩ : Fin 200000) k))
    (h1 : ∀ k : Fin 64, x1 (ix2 p k) = B (ix2 (⟨(i 0).val, idx2_lt0 i⟩ : Fin 200000) k)) :
    k2_pay1 (F := Ideal) x0 x1 (ix2 p z) = rowDots A B i := by
  rw [stored_apply]
  exact Finset.sum_congr rfl fun k _ => by rw [h0 k, h1 k]

theorem offsets_zero : (![0, 0] : Fin 2 → Nat) = fun _ => 0 := funext fun a => by fin_cases a <;> rfl

/-- The printed index maps over the grid: the three blocks move down the rows together, one block per point, on their
    one column block. -/
theorem index_facts : ∀ t : Fin cfg2.N, win2_0.index t (0 : Fin 2) = win2_2.index t (0 : Fin 2)
    ∧ win2_0.index t (1 : Fin 2) = 0
    ∧ win2_1.index t (0 : Fin 2) = win2_2.index t (0 : Fin 2)
    ∧ win2_1.index t (1 : Fin 2) = 0
    ∧ win2_2.index t (1 : Fin 2) = 0
    ∧ win2_2.index t (0 : Fin 2) ≤ 19 :=
  (by decide +kernel : ∀ t : Fin grid2.N, _)

/-- Every row block is some point's. -/
theorem index_onto : ∀ b : Fin 20, ∃ t : Fin cfg2.N, win2_2.index t = ![b.val, 0] :=
  (by decide +kernel : ∀ b : Fin 20, ∃ t : Fin grid2.N, win2_2.index t = ![b.val, 0])

section
variable (V : (c : Dev nD) → (b : Ref sig .tc) → Buf (Elt Ideal) ((c : Thread nD τ).loc b))

/-- What point `t` writes back is block `t` of the row dot products of the two arrays as the region finds them. -/
theorem flushed_eq (c : Dev nD) (t : Fin cfg2.N) :
    (dat2 V c).flushed 2 t = ((cfg2.win 2).blk t).view.read (Elt Ideal) (rowDots (V c main_v74) (V c main_v81)) := by
  show (cfg2.win 2).cut (grid2.coords t) ((dat2 V c).after 2 t) = _
  rw [after2_2]
  unfold out2_2
  rw [View.canon_unit_zero offsets_zero]
  simp only [View.ld_unit_zero (S := S10000x64) offsets_zero]
  obtain ⟨e0, e1, e2, e3, e4, e5⟩ := index_facts t
  funext j
  obtain ⟨p, z, rfl⟩ : ∃ (p : Fin 10000) (z : Fin 1), j = ix2 p z := ⟨j 0, j 1, eq_ix2 j⟩
  refine stored_eq_rowDots (V c main_v74) (V c main_v81) _ _ (((cfg2.win 2).blk t).view.emb (ix2 p z)) p z (fun k => ?_) (fun k => ?_)
  · show V c main_v74 (((cfg2.win 0).blk t).view.emb (ix2 p k)) = V c main_v74 _
    refine congrArg (V c main_v74) (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  · show V c main_v81 (((cfg2.win 1).blk t).view.emb (ix2 p k)) = V c main_v81 _
    refine congrArg (V c main_v81) (funext fun a => Fin.ext ?_)
    match a with
    | ⟨0, _⟩ => show win2_1.index t (0 : Fin 2) * 10000 + 1 * p.val = win2_2.index t (0 : Fin 2) * 10000 + 1 * p.val; omega
    | ⟨1, _⟩ => show win2_1.index t (1 : Fin 2) * 64 + 1 * k.val = k.val; omega

/-- An index of the output is in point `t`'s block iff each coordinate is in the block's range on its axis. -/
theorem mem_block (t : Fin cfg2.N) (i : S200000x1.Idx) :
    i ∈ ((cfg2.win 2).blk t).view.set ↔ ∀ a : Fin 2, win2_2.index t a * S10000x1.size a ≤ (i a).val ∧ (i a).val < win2_2.index t a * S10000x1.size a + S10000x1.size a := by
  show i ∈ ((View.whole main_v82).slice (win2_2.rect t)).set ↔ _
  rw [View.set_slice_whole, Rect.mem_set_unit]
  exact Iff.rfl

/-- Row `r` is in the block of the point whose block index is `r / 10000`: the blocks tile the output. -/
theorem covered (i : S200000x1.Idx) : ∃ t : Fin cfg2.N, (cfg2.win 2).flush t = true ∧ i ∈ ((cfg2.win 2).blk t).view.set := by
  have hi0 : (i 0).val < 200000 := (i 0).isLt
  have hi1 : (i 1).val < 1 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 1 ≤ (i 1).val ∧ (i 1).val < win2_2.index t (1 : Fin 2) * 1 + 1; omega

/-- The output column after the region: the row dot products of the two arrays as the region finds them. -/
theorem final (c : Dev nD) : (dat2 V c).arrAt 2 cfg2.N = rowDots (V c main_v74) (V c main_v81) :=
  (dat2 V c).arrAt_eq_of_cover 2 _ (fun t _ => flushed_eq V c t) (covered)

end

/-- The kernel's last stage as a function of the two endpoint matrices: their row dot products as a column, recast
    as a vector (the host operation after the region). -/
def scoreVector (a b : FVec Ideal S200000x64 .f32) : FVec Ideal S200000 .f32 :=
  shapeCast S200000 (rowDots a b) shapeCasts_S200000x1_S200000

end Cert.KernelIdeal.Decode

end
-- ==== Proof.KernelFold.lean ====
/-
  The idealized kernel's result as a function of its arguments.

  The program's buffer contents at the ten segment boundaries are a fold from the launch memory. Followed buffer by
  buffer: the opening host operations build the edge list with self loops and the edge weights; the first region
  leaves the product `x · W1`; the next stretch aggregates it along the edges, adds the bias and applies the rectifier;
  the second region leaves the product with `W2`; the next stretch aggregates again, adds the bias and gathers the two
  endpoint matrices of the label edges; the third region leaves the column of their row dot products, and the last
  operation recasts that column as a vector. A buffer that nothing in between writes — the edge list, the weights, an
  argument — holds at a later boundary what it held at an earlier one.
-/
import proofs.«164721_j78563541778798_1_alg».proof.Proof.Gen.KernelIdeal.Frame
import proofs.«164721_j78563541778798_1_alg».proof.Proof.HostStages
import proofs.«164721_j78563541778798_1_alg».proof.Proof.StretchWeights
import proofs.«164721_j78563541778798_1_alg».proof.Proof.StretchHidden
import proofs.«164721_j78563541778798_1_alg».proof.Proof.StretchEndpoint0
import proofs.«164721_j78563541778798_1_alg».proof.Proof.StretchEndpoint1
import proofs.«164721_j78563541778798_1_alg».proof.Proof.Dense1
import proofs.«164721_j78563541778798_1_alg».proof.Proof.Dense2
import proofs.«164721_j78563541778798_1_alg».proof.Proof.Decode
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- Reads a buffer at the first region's entry back through the three opening stretches of host operations. -/
local macro "from_launch" : tactic =>
  `(tactic| (show StableHlo.after hostOps0_2 (StableHlo.after hostOps0_1 (StableHlo.after hostOps0 (W0 _ _ _))) _ = _
             after_results))

/-- Reads a buffer after the first two opening stretches back to the launch memory. -/
local macro "from_launch2" : tactic =>
  `(tactic| (show StableHlo.after hostOps0_1 (StableHlo.after hostOps0 (W0 _ _ _)) _ = _
             after_results))

/-- Reads a buffer at the second region's entry back through the two stretches after the first region. -/
local macro "from_exit0" : tactic =>
  `(tactic| (show StableHlo.after hostOps1_1 (StableHlo.after hostOps1 (W4 _ _ _)) _ = _
             after_results))

/-! ## After the first stretch: the edge list, the degrees' comparison and inverse root -/

theorem src_W1 : W1 m ρ c (Proc.devRef .tc main_v5) = Cert.Gcn.srcLoop (m ((c : Thread nD τ).loc main_arg1)) := Stretch.src_of (W0 m ρ c)
theorem dst_W1 : W1 m ρ c (Proc.devRef .tc main_v6) = Cert.Gcn.dstLoop (m ((c : Thread nD τ).loc main_arg1)) := Stretch.dst_of (W0 m ρ c)
theorem positive_W1 : W1 m ρ c (Proc.devRef .tc main_v12)
    = cmpf .ogt (Cert.Gcn.degree (m ((c : Thread nD τ).loc main_arg1))) (broadcastInDim S50000 ![] bcast_S_S50000 (constant (F := Ideal) S_ .f32 0x00000000#32)) :=
  Stretch.positive_of (W0 m ρ c)
theorem invRoot_W1 : W1 m ρ c (Proc.devRef .tc main_v13) = Host.rsqrt (Cert.Gcn.degree (m ((c : Thread nD τ).loc main_arg1))) := Stretch.invRoot_of (W0 m ρ c)
theorem zero_W1 : W1 m ρ c (Proc.devRef .tc main_cst_2) = constant (F := Ideal) S_ .f32 0x00000000#32 := Stretch.zero_of (W0 m ρ c)

/-! ## After the second stretch: the inverse square roots of the degrees -/

theorem dinv_W2 : W2 m ρ c (Proc.devRef .tc main_v14) = Cert.Gcn.invSqrtDegree (m ((c : Thread nD τ).loc main_arg1)) :=
  (Stretch.select_of (W1 m ρ c)).trans (by rw [positive_W1, invRoot_W1, zero_W1]; rfl)
theorem src_W2 : W2 m ρ c (Proc.devRef .tc main_v5) = Cert.Gcn.srcLoop (m ((c : Thread nD τ).loc main_arg1)) := by from_launch2; rfl
theorem dst_W2 : W2 m ρ c (Proc.devRef .tc main_v6) = Cert.Gcn.dstLoop (m ((c : Thread nD τ).loc main_arg1)) := by from_launch2; rfl

/-! ## At the first region's entry -/

theorem weight_entry0 : W3 m ρ c (Proc.devRef .tc main_v30) = Cert.Gcn.edgeWeight (m ((c : Thread nD τ).loc main_arg1)) :=
  (Stretch.weight_of (W2 m ρ c)).trans (by rw [dinv_W2, src_W2, dst_W2]; rfl)
theorem src_entry0 : W3 m ρ c (Proc.devRef .tc main_v5) = Cert.Gcn.srcLoop (m ((c : Thread nD τ).loc main_arg1)) := by from_launch; rfl
theorem dst_entry0 : W3 m ρ c (Proc.devRef .tc main_v6) = Cert.Gcn.dstLoop (m ((c : Thread nD τ).loc main_arg1)) := by from_launch; rfl
theorem arg0_entry0 : W3 m ρ c (Proc.devRef .tc main_arg0) = (m ((c : Thread nD τ).loc main_arg0)) := by from_launch
theorem arg2_entry0 : W3 m ρ c (Proc.devRef .tc main_arg2) = (m ((c : Thread nD τ).loc main_arg2)) := by from_launch
theorem arg3_entry0 : W3 m ρ c (Proc.devRef .tc main_arg3) = (m ((c : Thread nD τ).loc main_arg3)) := by from_launch
theorem arg4_entry0 : W3 m ρ c (Proc.devRef .tc main_arg4) = (m ((c : Thread nD τ).loc main_arg4)) := by from_launch
theorem arg5_entry0 : W3 m ρ c (Proc.devRef .tc main_arg5) = (m ((c : Thread nD τ).loc main_arg5)) := by from_launch
theorem arg6_entry0 : W3 m ρ c (Proc.devRef .tc main_arg6) = (m ((c : Thread nD τ).loc main_arg6)) := by from_launch

/-! ## At the first region's exit: its output is the product, everything else is as it was -/

theorem product_exit0 : W4 m ρ c (Proc.devRef .tc main_v31) = Dense1.product (m ((c : Thread nD τ).loc main_arg0)) (m ((c : Thread nD τ).loc main_arg3)) := by
  refine ((W4_arr m ρ c 2).trans (Dense1.final (V3 m ρ) c)).trans ?_
  show Dense1.product (W3 m ρ c (Proc.devRef .tc main_arg0)) (W3 m ρ c (Proc.devRef .tc main_arg3)) = _
  rw [arg0_entry0, arg3_entry0]

theorem src_exit0 : W4 m ρ c (Proc.devRef .tc main_v5) = Cert.Gcn.srcLoop (m ((c : Thread nD τ).loc main_arg1)) :=
  (W4_of_ne m ρ c main_v5 (by decide)).trans (src_entry0 m ρ c)
theorem dst_exit0 : W4 m ρ c (Proc.devRef .tc main_v6) = Cert.Gcn.dstLoop (m ((c : Thread nD τ).loc main_arg1)) :=
  (W4_of_ne m ρ c main_v6 (by decide)).trans (dst_entry0 m ρ c)
theorem weight_exit0 : W4 m ρ c (Proc.devRef .tc main_v30) = Cert.Gcn.edgeWeight (m ((c : Thread nD τ).loc main_arg1)) :=
  (W4_of_ne m ρ c main_v30 (by decide)).trans (weight_entry0 m ρ c)
theorem arg2_exit0 : W4 m ρ c (Proc.devRef .tc main_arg2) = (m ((c : Thread nD τ).loc main_arg2)) :=
  (W4_of_ne m ρ c main_arg2 (by decide)).trans (arg2_entry0 m ρ c)
theorem arg4_exit0 : W4 m ρ c (Proc.devRef .tc main_arg4) = (m ((c : Thread nD τ).loc main_arg4)) :=
  (W4_of_ne m ρ c main_arg4 (by decide)).trans (arg4_entry0 m ρ c)
theorem arg5_exit0 : W4 m ρ c (Proc.devRef .tc main_arg5) = (m ((c : Thread nD τ).loc main_arg5)) :=
  (W4_of_ne m ρ c main_arg5 (by decide)).trans (arg5_entry0 m ρ c)
theorem arg6_exit0 : W4 m ρ c (Proc.devRef .tc main_arg6) = (m ((c : Thread nD τ).loc main_arg6)) :=
  (W4_of_ne m ρ c main_arg6 (by decide)).trans (arg6_entry0 m ρ c)

/-! ## At the second region's entry -/

theorem hidden_entry1 : W6 m ρ c (Proc.devRef .tc main_v47)
    = Cert.Gcn.hidden (m ((c : Thread nD τ).loc main_arg1)) (m ((c : Thread nD τ).loc main_arg4)) (Dense1.product (m ((c : Thread nD τ).loc main_arg0)) (m ((c : Thread nD τ).loc main_arg3))) :=
  (Stretch.hidden_of (W4 m ρ c)).trans (by rw [src_exit0, dst_exit0, weight_exit0, arg4_exit0, product_exit0]; rfl)

theorem src_entry1 : W6 m ρ c (Proc.devRef .tc main_v5) = Cert.Gcn.srcLoop (m ((c : Thread nD τ).loc main_arg1)) := by from_exit0; exact src_exit0 m ρ c
theorem dst_entry1 : W6 m ρ c (Proc.devRef .tc main_v6) = Cert.Gcn.dstLoop (m ((c : Thread nD τ).loc main_arg1)) := by from_exit0; exact dst_exit0 m ρ c
theorem weight_entry1 : W6 m ρ c (Proc.devRef .tc main_v30) = Cert.Gcn.edgeWeight (m ((c : Thread nD τ).loc main_arg1)) := by from_exit0; exact weight_exit0 m ρ c
theorem arg2_entry1 : W6 m ρ c (Proc.devRef .tc main_arg2) = (m ((c : Thread nD τ).loc main_arg2)) := by from_exit0; exact arg2_exit0 m ρ c
theorem arg5_entry1 : W6 m ρ c (Proc.devRef .tc main_arg5) = (m ((c : Thread nD τ).loc main_arg5)) := by from_exit0; exact arg5_exit0 m ρ c
theorem arg6_entry1 : W6 m ρ c (Proc.devRef .tc main_arg6) = (m ((c : Thread nD τ).loc main_arg6)) := by from_exit0; exact arg6_exit0 m ρ c

/-! ## At the second region's exit -/

theorem product_exit1 : W7 m ρ c (Proc.devRef .tc main_v48)
    = Dense2.product (Cert.Gcn.hidden (m ((c : Thread nD τ).loc main_arg1)) (m ((c : Thread nD τ).loc main_arg4)) (Dense1.product (m ((c : Thread nD τ).loc main_arg0)) (m ((c : Thread nD τ).loc main_arg3)))) (m ((c : Thread nD τ).loc main_arg5)) := by
  refine ((W7_arr m ρ c 2).trans (Dense2.final (V6 m ρ) c)).trans ?_
  show Dense2.product (W6 m ρ c (Proc.devRef .tc main_v47)) (W6 m ρ c (Proc.devRef .tc main_arg5)) = _
  rw [hidden_entry1, arg5_entry1]

theorem src_exit1 : W7 m ρ c (Proc.devRef .tc main_v5) = Cert.Gcn.srcLoop (m ((c : Thread nD τ).loc main_arg1)) :=
  (W7_of_ne m ρ c main_v5 (by decide)).trans (src_entry1 m ρ c)
theorem dst_exit1 : W7 m ρ c (Proc.devRef .tc main_v6) = Cert.Gcn.dstLoop (m ((c : Thread nD τ).loc main_arg1)) :=
  (W7_of_ne m ρ c main_v6 (by decide)).trans (dst_entry1 m ρ c)
theorem weight_exit1 : W7 m ρ c (Proc.devRef .tc main_v30) = Cert.Gcn.edgeWeight (m ((c : Thread nD τ).loc main_arg1)) :=
  (W7_of_ne m ρ c main_v30 (by decide)).trans (weight_entry1 m ρ c)
theorem arg2_exit1 : W7 m ρ c (Proc.devRef .tc main_arg2) = (m ((c : Thread nD τ).loc main_arg2)) :=
  (W7_of_ne m ρ c main_arg2 (by decide)).trans (arg2_entry1 m ρ c)
theorem arg6_exit1 : W7 m ρ c (Proc.devRef .tc main_arg6) = (m ((c : Thread nD τ).loc main_arg6)) :=
  (W7_of_ne m ρ c main_arg6 (by decide)).trans (arg6_entry1 m ρ c)

/-! ## At the third region's entry: the two endpoint matrices -/

/-- The node embeddings: layer 2 of layer 1 of the features. -/
abbrev nodeEmbedding : FVec Ideal S50000x64 .f32 :=
  Cert.Gcn.embedding (m ((c : Thread nD τ).loc main_arg1)) (m ((c : Thread nD τ).loc main_arg6))
    (Dense2.product (Cert.Gcn.hidden (m ((c : Thread nD τ).loc main_arg1)) (m ((c : Thread nD τ).loc main_arg4)) (Dense1.product (m ((c : Thread nD τ).loc main_arg0)) (m ((c : Thread nD τ).loc main_arg3)))) (m ((c : Thread nD τ).loc main_arg5)))

theorem endpoint0_entry2 : W8 m ρ c (Proc.devRef .tc main_v74) = Cert.Gcn.endpoint0 (m ((c : Thread nD τ).loc main_arg2)) (nodeEmbedding m c) :=
  (Stretch.endpoint0_of (W7 m ρ c)).trans (by rw [arg2_exit1, src_exit1, dst_exit1, weight_exit1, arg6_exit1, product_exit1]; rfl)

theorem endpoint1_entry2 : W8 m ρ c (Proc.devRef .tc main_v81) = Cert.Gcn.endpoint1 (m ((c : Thread nD τ).loc main_arg2)) (nodeEmbedding m c) :=
  (Stretch.endpoint1_of (W7 m ρ c)).trans (by rw [arg2_exit1, src_exit1, dst_exit1, weight_exit1, arg6_exit1, product_exit1]; rfl)

/-! ## At the third region's exit, and the result -/

theorem scores_exit2 : W9 m ρ c (Proc.devRef .tc main_v82)
    = Decode.rowDots (Cert.Gcn.endpoint0 (m ((c : Thread nD τ).loc main_arg2)) (nodeEmbedding m c)) (Cert.Gcn.endpoint1 (m ((c : Thread nD τ).loc main_arg2)) (nodeEmbedding m c)) := by
  refine ((W9_arr m ρ c 2).trans (Decode.final (V8 m ρ) c)).trans ?_
  show Decode.rowDots (W8 m ρ c (Proc.devRef .tc main_v74)) (W8 m ρ c (Proc.devRef .tc main_v81)) = _
  rw [endpoint0_entry2, endpoint1_entry2]

/-- THE RESULT: the network over the two regions' products and the third region's row dot products. -/
theorem result_eq : W10 m ρ c (Proc.devRef .tc main_v83)
    = Cert.Gcn.forward (F := Ideal) Dense1.product Dense2.product Decode.scoreVector
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W9 m ρ c) _ = _
  after_results
  rw [scores_exit2]
  rfl

end Cert.KernelIdeal.Fold

end
-- ==== Proof.RefValue.lean ====
/-
  The reference's result as the same network at its own three dense stages.

  The reference computes the two dense products with the host's dot product and the decoder with an entrywise product
  followed by the host's sum over each row. Everything around those three stages — the edge list with self loops, the
  degrees and edge weights (which it computes once per layer, to the same values), the two aggregations, the biases,
  the rectifier, the endpoint gathers — is operation for operation the function `Cert.Gcn.forward`.
-/
import proofs.«164721_j78563541778798_1_alg».proof.Proof.RefRun
import proofs.«164721_j78563541778798_1_alg».proof.Proof.HostStages

set_option maxRecDepth 16384

noncomputable section

namespace Cert.ReferenceIdeal.RefValue

open Cert.ReferenceIdeal Cert.ReferenceIdeal.Facts₀
open Idealize.ShloMosaic Idealize.ShloMosaic.TcCoe Idealize.SL.Sem

variable {F : FTy → Type} [FloatOps F] [Cert.KernelIdeal.Facts] [Cert.ReferenceIdeal.Facts]

/-- The reference's first dense stage: the host's dot product `x · W1`. -/
def product1 (l : FVec F S50000x256 .f32) (r : FVec F S256x128 .f32) : FVec F S50000x128 .f32 :=
  Host.dotGeneral dot_S50000x256_S256x128_S50000x128_1_0_0_1_n_n none l r

/-- The reference's second dense stage: the host's dot product `h · W2`. -/
def product2 (l : FVec F S50000x128 .f32) (r : FVec F S128x64 .f32) : FVec F S50000x64 .f32 :=
  Host.dotGeneral dot_S50000x128_S128x64_S50000x64_1_0_0_1_n_n none l r

/-- The reference's decoder: the entrywise product of the two endpoint matrices, summed over each row from zero. -/
def scoreVector (a b : FVec F S200000x64 .f32) : FVec F S200000 .f32 :=
  Host.reduceAdd (mulf a b) (constant (F := F) S_ .f32 0x00000000#32) reducesTo_S200000x64_S200000_d1 h_S_

/-- The reference's composed term is the network at these three stages. -/
theorem result_eq (m : (ℓ : Loc nD τ sig) → Buf (Elt F) ℓ) (c : Dev nD) :
    Cert.ReferenceIdeal.ValueP.res_main_v110 m c
      = Cert.Gcn.forward (F := F) product1 product2 scoreVector
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.ValueP.res_main_v110
  rfl

end Cert.ReferenceIdeal.RefValue

end
-- ==== Proof.DenseStages.lean ====
/-
  The three dense stages of the two programs are the same functions on the extended reals.

  The host's dot product of a 50000 × K by a K × C array is at `(p, q)` the sum over `k` of `l (p, k) · r (k, q)`: the
  plain product the kernel's regions leave. The host's sum over each row of the entrywise product of two 200000 × 64
  arrays, started from zero, is at `r` the sum over `k` of `a (r, k) · b (r, k)`; the kernel's column of row dot products
  recast as a vector holds at `r` its entry `(r, 0)`, the same sum. No rearrangement of a sum and no distributivity is
  involved, so nothing is asked of the entries: they may be infinite.
-/
import proofs.«164721_j78563541778798_1_alg».proof.Proof.RefValue
import proofs.«164721_j78563541778798_1_alg».proof.Proof.Dense1
import proofs.«164721_j78563541778798_1_alg».proof.Proof.Dense2
import proofs.«164721_j78563541778798_1_alg».proof.Proof.Decode
import proofs.«164721_j78563541778798_1_alg».proof.Proof.LibMatOps
import Idealize.ShloMosaic.PureOps.Ideal.Laws
import Idealize.ShloMosaic.Lib.Pipeline.Value
import Idealize.ShloMosaic.Lib.ValueIdx

set_option maxRecDepth 16384

noncomputable section

open scoped BigOperators

namespace Cert.DenseStages

open Idealize.ShloMosaic Idealize.ShloMosaic.ValueIdx

/-- The host's `x · W1` is the plain product. -/
theorem product1_eq : Cert.ReferenceIdeal.RefValue.product1 (F := Ideal) = Cert.KernelIdeal.Dense1.product := by
  funext l r i
  obtain ⟨p, q, rfl⟩ : ∃ (p : Fin 50000) (q : Fin 128), i = ix2 p q := ⟨i 0, i 1, eq_ix2 i⟩
  exact Cert.MatOps.dotGeneral_plain_apply Cert.ReferenceIdeal.Facts₀.dot_S50000x256_S256x128_S50000x128_1_0_0_1_n_n_wf none .single l r p q

/-- The host's `h · W2` is the plain product. -/
theorem product2_eq : Cert.ReferenceIdeal.RefValue.product2 (F := Ideal) = Cert.KernelIdeal.Dense2.product := by
  funext l r i
  obtain ⟨p, q, rfl⟩ : ∃ (p : Fin 50000) (q : Fin 64), i = ix2 p q := ⟨i 0, i 1, eq_ix2 i⟩
  exact Cert.MatOps.dotGeneral_plain_apply Cert.ReferenceIdeal.Facts₀.dot_S50000x128_S128x64_S50000x64_1_0_0_1_n_n_wf none .single l r p q

/-- The kernel's score of label edge `r`: entry `(r, 0)` of the column of row dot products. -/
theorem kernel_score (a b : FVec Ideal Cert.KernelIdeal.S200000x64 .f32) (r : Fin 200000) :
    Cert.KernelIdeal.Decode.scoreVector a b (ix1 r) = ∑ k : Fin 64, a (ix2 r k) * b (ix2 r k) := by
  unfold Cert.KernelIdeal.Decode.scoreVector
  refine (shapeCast_apply _ _ (ix1 r) (ix2 r (0 : Fin 1)) ?_).trans (Cert.KernelIdeal.Decode.rowDots_apply a b r 0)
  rw [Shape.rowMajor_val_two, Shape.rowMajor_val_one]
  show r.val * 1 + 0 = r.val
  omega

/-- The reference's score of label edge `r`: zero plus the sum over the row of the entrywise product. -/
theorem reference_score (a b : FVec Ideal Cert.ReferenceIdeal.S200000x64 .f32) (r : Fin 200000) :
    Cert.ReferenceIdeal.RefValue.scoreVector (F := Ideal) a b (ix1 r) = ∑ k : Fin 64, a (ix2 r k) * b (ix2 r k) := by
  unfold Cert.ReferenceIdeal.RefValue.scoreVector Host.reduceAdd
  rw [Ideal.hostReduceAdd_def]
  refine (Ideal.hostReduceAdd_single Cert.ReferenceIdeal.Facts₀.reducesTo_S200000x64_S200000_d1 (by decide) _ _ (ix1 r)).trans ?_
  show Ideal.ofBits .f32 0x00000000#32 + _ = _
  rw [Ideal.ofBits_zero_f32, zero_add]
  refine Finset.sum_congr rfl fun k _ => ?_
  exact congrArg (mulf a b) (funext fun x => Fin.ext (by match x with | ⟨0, _⟩ => rfl | ⟨1, _⟩ => rfl))

/-- The two decoders are one function. -/
theorem scoreVector_eq : Cert.ReferenceIdeal.RefValue.scoreVector (F := Ideal) = Cert.KernelIdeal.Decode.scoreVector := by
  funext a b i
  obtain ⟨r, rfl⟩ : ∃ r : Fin 200000, i = ix1 r := ⟨i 0, eq_ix1 i⟩
  rw [reference_score, kernel_score]

end Cert.DenseStages

end
-- ==== Proof.lean ====
/-
  A two-layer graph convolution with a dot-product edge decoder: the Pallas kernel against its jnp reference.

  Both programs compute, for 200000 label edges `(a, b)`, the dot product of the rows `z a` and `z b` of the node
  embeddings `z = Â · relu (Â · (x · W1) + b1) · W2 + b2`, where `Â` aggregates along the 600000 edges and one self loop
  per node with the weights `deg^(-1/2) (source) · deg^(-1/2) (destination)`. The kernel runs the two dense products and
  the row dot products as pipelined regions (the products on the matrix unit from operands narrowed to bf16, the dot
  products as a lane sum kept as a column); the reference uses the host's dot product and the host's row sum. Everything
  around those three stages is the same host operations in both programs.

  On the extended reals a change of float format is the identity, the matrix unit accumulating into zeros and the
  host's dot product are the same sum over the contraction index, and a lane sum and a host sum from zero are the same
  sum over the row. So both programs are ONE function of their arguments (`Cert.Gcn.forward` at the plain products and
  the row dot products), index by index, with no law that needs finite entries: the precondition is never opened.

  * `frame_Kernel`, `frame_KernelIdeal`: the generated frames. `frame_ReferenceIdeal`: the reference's run with its
    result dropped.
  * `preserves_Kernel_KernelIdeal`: the idealization rewrote nothing, the conjunct is `True`.
  * `algebraic_KernelIdeal_ReferenceIdeal`: the kernel's run ends with its result at the fold of its ten segments
    (`Result.run_result`), which is `forward` at the regions' closed forms (`Fold.result_eq`); the reference's run ends with
    its result at its composed term, which is `forward` at the host's stages (`RefValue.result_eq`); the stages agree
    (`DenseStages`), and the arguments agree by hypothesis.
-/
import proofs.«164721_j78563541778798_1_alg».proof.Defs
import proofs.«164721_j78563541778798_1_alg».proof.Proof.Gen.Kernel
import proofs.«164721_j78563541778798_1_alg».proof.Proof.Gen.Kernel.Frame
import proofs.«164721_j78563541778798_1_alg».proof.Proof.Gen.KernelIdeal
import proofs.«164721_j78563541778798_1_alg».proof.Proof.Gen.KernelIdeal.Frame
import proofs.«164721_j78563541778798_1_alg».proof.Proof.Gen.ReferenceIdeal
import proofs.«164721_j78563541778798_1_alg».proof.Proof.Gen.Pre_finite_inputs
import proofs.«164721_j78563541778798_1_alg».proof.Proof.KernelRun
import proofs.«164721_j78563541778798_1_alg».proof.Proof.KernelFold
import proofs.«164721_j78563541778798_1_alg».proof.Proof.RefRun
import proofs.«164721_j78563541778798_1_alg».proof.Proof.RefValue
import proofs.«164721_j78563541778798_1_alg».proof.Proof.DenseStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with their result at the network's value on the launch arguments. -/
theorem algebraic : Cert.algebraic_KernelIdeal_ReferenceIdeal := by
  intro m ρ m' ρ' _ hagree
  refine ⟨fun c => Cert.Gcn.forward (F := Ideal) Cert.KernelIdeal.Dense1.product Cert.KernelIdeal.Dense2.product
      Cert.KernelIdeal.Decode.scoreVector
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.result_eq m ρ c), (h c).2⟩)
      (Cert.KernelIdeal.Result.run_result m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_eq, Cert.DenseStages.product1_eq, Cert.DenseStages.product2_eq,
      Cert.DenseStages.scoreVector_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
